-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S2000x128 : Shape := ⟨2, ![2000, 128]⟩
abbrev S2000x64 : Shape := ⟨2, ![2000, 64]⟩
abbrev S1600000x64 : Shape := ⟨2, ![1600000, 64]⟩
abbrev S1x64 : Shape := ⟨2, ![1, 64]⟩
abbrev S100000x1 : Shape := ⟨2, ![100000, 1]⟩
abbrev S128 : Shape := ⟨1, ![128]⟩
abbrev S1x1 : Shape := ⟨2, ![1, 1]⟩
abbrev S128x1 : Shape := ⟨2, ![128, 1]⟩

abbrev nBuf : Space → Nat
  | .hbm => 147
  | .vmem => 24
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1x64, .f32⟩
  | 89 => ⟨S100000x64, .f32⟩
  | 90 => ⟨S100000x64, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S128x64, .f32⟩
  | 5 => ⟨S100000x1, .i32⟩
  | 6 => ⟨S128x64, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S_, .f32⟩
  | 15 => ⟨S128x64, .f32⟩
  | 16 => ⟨S128x64, .f32⟩
  | 17 => ⟨S1x1, .f32⟩
  | 18 => ⟨S128x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S2000x64, .f32⟩
  | .local _ .vmem, ⟨19, _⟩ => ⟨S2000x64, .f32⟩
  | .local _ .vmem, ⟨20, _⟩ => ⟨S128x64, .f32⟩
  | .local _ .vmem, ⟨21, _⟩ => ⟨S64x1, .f32⟩
  | .local _ .vmem, ⟨22, _⟩ => ⟨S1x1, .f32⟩
  | .local _ .vmem, ⟨23, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  reducesTo_S128_S_d0 : S128.ReducesTo [0] S_
  h_S_ : 0 < S_.numel
  shapeCasts_S1_S1x1 : S1.ShapeCasts S1x1
  shapeCasts_S128x64_S128x64 : S128x64.ShapeCasts S128x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v106) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1x64, .f32⟩
  | 89 => ⟨S100000x64, .f32⟩
  | 90 => ⟨S100000x64, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64, .f32⟩
  | 109 => ⟨S100000x64, .f32⟩
  | 110 => ⟨S100000x64, .f32⟩
  | 111 => ⟨S100000x64, .f32⟩
  | 112 => ⟨S1600000x1, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S128x64, .f32⟩
  | 5 => ⟨S100000x1, .i32⟩
  | 6 => ⟨S128x64, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S_, .f32⟩
  | 15 => ⟨S128x64, .f32⟩
  | 16 => ⟨S128x64, .f32⟩
  | 17 => ⟨S128x1, .f32⟩
  | 18 => ⟨S1x1, .f32⟩
  | 19 => ⟨S128x1, .f32⟩
  | 20 => ⟨S128x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  reducesTo_S128_S_d0 : S128.ReducesTo [0] S_
  h_S_ : 0 < S_.numel
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x1_S128x1_1_0_0_1_n_n_wf : DotDims.WF S128x64 S64x1 S128x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.KernelRun.lean ====
/-
  The kernel program's run, with its result.

  @main of the kernel's program is twelve segments: stretches of host operations and five tiled matrix-product
  regions. From any memory, every weakly fair execution terminates without a fault; the buffer contents at each
  segment boundary are the fold W0, W1, …, W12 of the segments over the launch memory (a host stretch applies its
  operations, a region replaces its result array by what its write-backs leave). So the result buffer ends
  holding what the last boundary's contents W12 hold there, and the thirteen argument arrays end as launched.
  This is the library's launch theorem for a program of several regions, read at the result buffer as well as at
  the arguments.
-/
import proofs.«126373_j50139448213625_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Whole

end
-- ==== Proof.Kept.lean ====
/-
  What each segment of the kernel's program leaves alone.

  The buffer contents at the boundaries of @main's segments are a fold W0, W1, …, W12 over the launch memory. A
  stretch of host operations changes only the buffers its operations write (each writes one, named here per
  stretch); a region changes only its result array. So a buffer that none of the segments between two boundaries
  writes holds the same contents at both: the arguments hold their launch contents at every boundary up to
  where they are used, and the edge tables computed before the first region (sources, targets, edge weights)
  are still there when each later layer reads them.
-/
import proofs.«126373_j50139448213625_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## The references each stretch of host operations writes -/

abbrev written0 : List (Ref sig .tc) := [main_v0, main_v1, main_v2, main_v3, main_cst, main_v4, main_cst_0, main_v5, main_v6, main_v7, main_cst_1, main_v8, main_v9, main_cst_2, main_v10, main_v11, main_cst_3, main_v12]
abbrev written0_1 : List (Ref sig .tc) := [main_v13]
abbrev written0_2 : List (Ref sig .tc) := [main_c, main_v14, main_v15, main_c_4, main_v16, main_v17, main_v18, main_v19, main_v20, main_c_5, main_v21, main_v22, main_c_6, main_v23, main_v24, main_v25, main_v26, main_v27, main_v28]
abbrev written1 : List (Ref sig .tc) := [main_v30, main_c_7, main_v31, main_v32, main_c_8, main_v33, main_v34, main_v35, main_v36, main_v37, main_v38, main_v39, main_cst_9, main_v40, main_v41, main_v42, main_v43, main_v44, main_v45]
abbrev written2 : List (Ref sig .tc) := [main_v47, main_c_10, main_v48, main_v49, main_c_11, main_v50, main_v51, main_v52, main_v53, main_v54, main_v55, main_v56, main_cst_12, main_v57, main_v58, main_v59, main_v60, main_v61, main_v62]
abbrev written3 : List (Ref sig .tc) := [main_v64, main_c_13, main_v65, main_v66, main_c_14, main_v67, main_v68, main_v69, main_v70, main_v71, main_v72, main_v73, main_cst_15, main_v74, main_v75, main_v76, main_v77, main_v78, main_v79]
abbrev written4 : List (Ref sig .tc) := [main_v81, main_c_16, main_v82, main_v83, main_c_17, main_v84, main_v85, main_v86, main_v87, main_v88, main_v89, main_v90, main_cst_18, main_v91, main_v92, main_v93, main_v94, main_v95, main_v96, main_cst_19, main_v97, main_v98, main_v99, main_cst_20, main_v100, main_cst_21, main_v101, main_v102, main_v103, main_cst_22, main_v104, main_v105, main_v106, main_v107]

theorem writes0 : (hostOps0 : List (HloOp τ sig (Elt F))).Forall fun op => op.writes ⊆ ((written0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes0_1 : (hostOps0_1 : List (HloOp τ sig (Elt F))).Forall fun op => op.writes ⊆ ((written0_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes0_2 : (hostOps0_2 : List (HloOp τ sig (Elt F))).Forall fun op => op.writes ⊆ ((written0_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes1 : (hostOps1 : List (HloOp τ sig (Elt F))).Forall fun op => op.writes ⊆ ((written1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes2 : (hostOps2 : List (HloOp τ sig (Elt F))).Forall fun op => op.writes ⊆ ((written2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes3 : (hostOps3 : List (HloOp τ sig (Elt F))).Forall fun op => op.writes ⊆ ((written3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
theorem writes4 : (hostOps4 : List (HloOp τ sig (Elt F))).Forall fun op => op.writes ⊆ ((written4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-! ## One stretch: a reference it does not write keeps its contents -/

theorem across0 (r : Ref sig .tc) (h : r ∉ written0) : W1 m ρ c (Proc.devRef .tc r) = W0 m ρ c (Proc.devRef .tc r) :=
  StableHlo.after_of_writes_sub hostOps0 _ writes0 h
theorem across0_1 (r : Ref sig .tc) (h : r ∉ written0_1) : W2 m ρ c (Proc.devRef .tc r) = W1 m ρ c (Proc.devRef .tc r) :=
  StableHlo.after_of_writes_sub hostOps0_1 _ writes0_1 h
theorem across0_2 (r : Ref sig .tc) (h : r ∉ written0_2) : W3 m ρ c (Proc.devRef .tc r) = W2 m ρ c (Proc.devRef .tc r) :=
  StableHlo.after_of_writes_sub hostOps0_2 _ writes0_2 h
theorem across1 (r : Ref sig .tc) (h : r ∉ written1) : W5 m ρ c (Proc.devRef .tc r) = W4 m ρ c (Proc.devRef .tc r) :=
  StableHlo.after_of_writes_sub hostOps1 _ writes1 h
theorem across2 (r : Ref sig .tc) (h : r ∉ written2) : W7 m ρ c (Proc.devRef .tc r) = W6 m ρ c (Proc.devRef .tc r) :=
  StableHlo.after_of_writes_sub hostOps2 _ writes2 h
theorem across3 (r : Ref sig .tc) (h : r ∉ written3) : W9 m ρ c (Proc.devRef .tc r) = W8 m ρ c (Proc.devRef .tc r) :=
  StableHlo.after_of_writes_sub hostOps3 _ writes3 h
theorem across4 (r : Ref sig .tc) (h : r ∉ written4) : W11 m ρ c (Proc.devRef .tc r) = W10 m ρ c (Proc.devRef .tc r) :=
  StableHlo.after_of_writes_sub hostOps4 _ writes4 h

/-! ## From the launch to the first region -/

/-- A reference none of the three stretches before region 0 writes holds its launch contents when region 0 is entered. -/
theorem entry0 (r : Ref sig .tc) (h0 : r ∉ written0) (h1 : r ∉ written0_1) (h2 : r ∉ written0_2) :
    W3 m ρ c (Proc.devRef .tc r) = m ((c : Thread nD τ).loc r) :=
  (across0_2 m ρ c r h2).trans ((across0_1 m ρ c r h1).trans ((across0 m ρ c r h0).trans rfl))

/-! ## From the first region's entry onwards: what is neither a region's array nor written by a stretch stays -/

theorem to4 (r : Ref sig .tc) (a0 : ∀ w, Pipeline.arrRef spec0 w ≠ r) :
    W4 m ρ c (Proc.devRef .tc r) = W3 m ρ c (Proc.devRef .tc r) := W4_of_ne m ρ c r a0
theorem to5 (r : Ref sig .tc) (a0 : ∀ w, Pipeline.arrRef spec0 w ≠ r) (h1 : r ∉ written1) :
    W5 m ρ c (Proc.devRef .tc r) = W3 m ρ c (Proc.devRef .tc r) := (across1 m ρ c r h1).trans (to4 m ρ c r a0)
theorem to6 (r : Ref sig .tc) (a0 : ∀ w, Pipeline.arrRef spec0 w ≠ r) (h1 : r ∉ written1) (a1 : ∀ w, Pipeline.arrRef spec1 w ≠ r) :
    W6 m ρ c (Proc.devRef .tc r) = W3 m ρ c (Proc.devRef .tc r) := (W6_of_ne m ρ c r a1).trans (to5 m ρ c r a0 h1)
theorem to7 (r : Ref sig .tc) (a0 : ∀ w, Pipeline.arrRef spec0 w ≠ r) (h1 : r ∉ written1) (a1 : ∀ w, Pipeline.arrRef spec1 w ≠ r)
    (h2 : r ∉ written2) : W7 m ρ c (Proc.devRef .tc r) = W3 m ρ c (Proc.devRef .tc r) :=
  (across2 m ρ c r h2).trans (to6 m ρ c r a0 h1 a1)
theorem to8 (r : Ref sig .tc) (a0 : ∀ w, Pipeline.arrRef spec0 w ≠ r) (h1 : r ∉ written1) (a1 : ∀ w, Pipeline.arrRef spec1 w ≠ r)
    (h2 : r ∉ written2) (a2 : ∀ w, Pipeline.arrRef spec2 w ≠ r) : W8 m ρ c (Proc.devRef .tc r) = W3 m ρ c (Proc.devRef .tc r) :=
  (W8_of_ne m ρ c r a2).trans (to7 m ρ c r a0 h1 a1 h2)
theorem to9 (r : Ref sig .tc) (a0 : ∀ w, Pipeline.arrRef spec0 w ≠ r) (h1 : r ∉ written1) (a1 : ∀ w, Pipeline.arrRef spec1 w ≠ r)
    (h2 : r ∉ written2) (a2 : ∀ w, Pipeline.arrRef spec2 w ≠ r) (h3 : r ∉ written3) :
    W9 m ρ c (Proc.devRef .tc r) = W3 m ρ c (Proc.devRef .tc r) :=
  (across3 m ρ c r h3).trans (to8 m ρ c r a0 h1 a1 h2 a2)
theorem to10 (r : Ref sig .tc) (a0 : ∀ w, Pipeline.arrRef spec0 w ≠ r) (h1 : r ∉ written1) (a1 : ∀ w, Pipeline.arrRef spec1 w ≠ r)
    (h2 : r ∉ written2) (a2 : ∀ w, Pipeline.arrRef spec2 w ≠ r) (h3 : r ∉ written3) (a3 : ∀ w, Pipeline.arrRef spec3 w ≠ r) :
    W10 m ρ c (Proc.devRef .tc r) = W3 m ρ c (Proc.devRef .tc r) :=
  (W10_of_ne m ρ c r a3).trans (to9 m ρ c r a0 h1 a1 h2 a2 h3)
theorem to11 (r : Ref sig .tc) (a0 : ∀ w, Pipeline.arrRef spec0 w ≠ r) (h1 : r ∉ written1) (a1 : ∀ w, Pipeline.arrRef spec1 w ≠ r)
    (h2 : r ∉ written2) (a2 : ∀ w, Pipeline.arrRef spec2 w ≠ r) (h3 : r ∉ written3) (a3 : ∀ w, Pipeline.arrRef spec3 w ≠ r)
    (h4 : r ∉ written4) : W11 m ρ c (Proc.devRef .tc r) = W3 m ρ c (Proc.devRef .tc r) :=
  (across4 m ρ c r h4).trans (to10 m ρ c r a0 h1 a1 h2 a2 h3 a3)

end Cert.KernelIdeal.Kept

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«126373_j50139448213625_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«126373_j50139448213625_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«126373_j50139448213625_1_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibTileEntry.lean ====
/-
  A block of rows of a dense product, entry by entry, at the extended reals.

  A matrix X of M rows is multiplied by a matrix W. A tile of the product is computed from a tile of rows of X and
  from all of W, both first narrowed to a shorter float format (the identity at the extended reals), accumulated
  into the zero matrix. Entry (r, c) of the tile is the sum over k of X(off + r, k) · W(k, c), which is entry
  (off + r, c) of the host's product X · W. The host's product does not depend on the float format its operands
  are held in. No finiteness is asked of any entry.
-/
import proofs.«126373_j50139448213625_1_alg».proof.Proof.LibBlockFormats

noncomputable section

open scoped BigOperators

namespace Cert.Lib.TileEntry

open Idealize.ShloMosaic Idealize.ShloMosaic.ValueIdx Cert.Lib.DenseLayer

/-- The host's product of two operands reads its right operand as a function of the index only: two right operands
    with the same entries, held in whatever formats, give the same product. -/
theorem dotGeneral_right_congr {sl sr so : Shape} {φ₁ φ₂ φ₂' : FTy} (d : DotDims sl sr so) (l : FVec Ideal sl φ₁)
    (r : FVec Ideal sr φ₂) (r' : FVec Ideal sr φ₂') (h : ∀ i, r i = r' i) :
    Host.dotGeneral d none l r = Host.dotGeneral d none l r' := funext fun j =>
  (Ideal.dotGeneral_apply d none .single l r j).trans
    ((Finset.sum_congr rfl fun q _ => by rw [h]).trans (Ideal.dotGeneral_apply d none .single l r' j).symm)

/-- One entry of a tile of the product: the tile's rows are rows off, off + 1, … of X, its right factor is W. -/
theorem tile_entry {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    (xb : FVec Ideal ⟨2, ![Mb, K]⟩ .f32) (X : FVec Ideal ⟨2, ![M, K]⟩ .f32) (wb W : FVec Ideal ⟨2, ![K, N]⟩ .f32)
    (hx : RowBlk off xb X) (hw : ∀ i, wb i = W i) (h₁ : FTy.bf16.bits < FTy.f32.bits) (h₂ : FTy.bf16.bits < FTy.f32.bits)
    (j : (⟨2, ![Mb, N]⟩ : Shape).Idx) (i : (⟨2, ![M, N]⟩ : Shape).Idx)
    (hi0 : (i 0).val = off + (j 0).val) (hi1 : (i 1).val = (j 1).val) :
    Idealize.ShloMosaic.matmul db none (truncf .bf16 xb h₁) (truncf .bf16 wb h₂) (constant ⟨2, ![Mb, N]⟩ .f32 0x00000000#32) j
      = Host.dotGeneral dh none X W i :=
  ((RowBlk.matmulZero hb hh (RowBlk.narrow hx h₁) (truncf .bf16 wb h₂)).at j i hi0 hi1).trans
    (congrFun (dotGeneral_right_congr dh X (truncf .bf16 wb h₂) W hw) i)

end Cert.Lib.TileEntry

end
-- ==== Proof.Region0.lean ====
/-
  Region 0 of the kernel's program: a dense product computed tile by tile.

  The region's grid has 50 points. At point t the body loads rows 2000·t … 2000·t + 1999 of the left matrix (all
  128 columns) and the whole 128×64 right matrix, narrows both to bf16 (the identity at the extended reals),
  multiplies them into a zero accumulator and stores the 2000×64 tile, which is written back as rows
  2000·t … 2000·t + 1999 of the result. Every entry of a tile is therefore the entry of the whole product
  X · W at the same place, the fifty tiles cover all 100000 rows, and the array the region leaves is the
  host's dot_general of the two arrays the region found — for whatever contents V the region is entered with.
-/
import proofs.«126373_j50139448213625_1_alg».proof.Proof.Gen.KernelIdeal.Frame
import proofs.«126373_j50139448213625_1_alg».proof.Proof.Gen.ReferenceIdeal
import proofs.«126373_j50139448213625_1_alg».proof.Proof.LibTileEntry

set_option maxRecDepth 16384

noncomputable section

namespace Cert.KernelIdeal.Dense0

open Idealize.ShloMosaic Idealize.ShloMosaic.TcCoe Idealize.SL.Sem Idealize.ShloMosaic.ValueIdx
open Cert.KernelIdeal Cert.KernelIdeal.Gen Cert.Lib.DenseLayer Cert.Lib.TileEntry
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's and the host's dimension numbers are the plain ones: rows times columns, contracted over the shared axis. -/
theorem plainTile : Plain dot_S2000x128_S128x64_S2000x64_1_0_0_1_n_n := Plain.of_fields _ rfl rfl rfl rfl rfl rfl
theorem plainHost : Plain Cert.ReferenceIdeal.dot_S100000x128_S128x64_S100000x64_1_0_0_1_n_n := Plain.of_fields _ rfl rfl rfl rfl rfl rfl

/-- The index maps over the grid: the left operand's and the result's blocks move down one block of rows per point,
    the right operand's block stays at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The host's product of the two arrays the region finds. -/
abbrev product (c : Dev nD) : S100000x64.Idx → EReal :=
  Host.dotGeneral (F := Ideal) (φ₁ := .f32) (φ₂ := .f32) Cert.ReferenceIdeal.dot_S100000x128_S128x64_S100000x64_1_0_0_1_n_n none (V c main_arg0) (V c main_arg3)

/-- The left operand's block at point t is the block of rows of the left array that starts at row 2000·t. -/
theorem left_block (c : Dev nD) (t : Fin cfg0.N) : RowBlk (M := 100000) (2000 * t.val) (iblk0 V c 0 t) (V c main_arg0) := by
  intro r hr k
  obtain ⟨e0, e1, -, -, -, -⟩ := block_indices t
  show V c main_arg0 (((cfg0.win 0).blk t).view.emb (ix2 r k)) = V c main_arg0 (ix2 ⟨2000 * t.val + r.val, hr⟩ k)
  refine congrArg (V c main_arg0) (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * k.val = k.val; omega

/-- The right operand's block at every point is the whole right array. -/
theorem right_block (c : Dev nD) (t : Fin cfg0.N) (y : S128x64.Idx) : iblk0 V c 1 t y = V c main_arg3 y := by
  obtain ⟨-, -, e2, e3, -, -⟩ := block_indices t
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What point t writes back is block t of the product. -/
theorem written_back (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x64) origin]
  obtain ⟨-, -, -, -, e4, e5⟩ := block_indices t
  funext j
  show k0_pay1 (iblk0 V c 0 t) (iblk0 V c 1 t) j = product V c (((cfg0.win 2).blk t).view.emb j)
  unfold k0_pay1
  refine tile_entry plainTile plainHost _ (V c main_arg0) _ (V c main_arg3) (left_block V c t) (right_block V c t) _ _ j _ ?_ ?_
  · show win0_2.index t (0 : Fin 2) * 2000 + 1 * (j 0).val = 2000 * t.val + (j 0).val; omega
  · show win0_2.index t (1 : Fin 2) * 64 + 1 * (j 1).val = (j 1).val; omega

/-- An index of the result array is in point t's block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v29).slice (win0_2.rect t)).set ↔ _
  rw [View.set_slice_whole, Rect.mem_set_unit]
  exact Iff.rfl

/-- Row i of the result lies in the block of point i / 2000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨-, -, -, -, e4, e5⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- THE REGION'S RESULT: the array it leaves is the host's product of the two arrays it found. -/
theorem result (c : Dev nD) : (dat0 V c).arrAt 2 cfg0.N = product V c :=
  (dat0 V c).arrAt_eq_of_cover 2 (product V c) (fun t _ => written_back V c t) covered

end Cert.KernelIdeal.Dense0

end
-- ==== Proof.Region1.lean ====
/-
  Region 1 of the kernel's program: a dense product computed tile by tile.

  The region's grid has 50 points. At point t the body loads rows 2000·t … 2000·t + 1999 of the left matrix (all
  64 columns) and the whole 64×64 right matrix, narrows both to bf16 (the identity at the extended reals),
  multiplies them into a zero accumulator and stores the 2000×64 tile, which is written back as rows
  2000·t … 2000·t + 1999 of the result. Every entry of a tile is therefore the entry of the whole product
  X · W at the same place, the fifty tiles cover all 100000 rows, and the array the region leaves is the
  host's dot_general of the two arrays the region found — for whatever contents V the region is entered with.
-/
import proofs.«126373_j50139448213625_1_alg».proof.Proof.Gen.KernelIdeal.Frame
import proofs.«126373_j50139448213625_1_alg».proof.Proof.Gen.ReferenceIdeal
import proofs.«126373_j50139448213625_1_alg».proof.Proof.LibTileEntry

set_option maxRecDepth 16384

noncomputable section

namespace Cert.KernelIdeal.Dense1

open Idealize.ShloMosaic Idealize.ShloMosaic.TcCoe Idealize.SL.Sem Idealize.ShloMosaic.ValueIdx
open Cert.KernelIdeal Cert.KernelIdeal.Gen Cert.Lib.DenseLayer Cert.Lib.TileEntry
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's and the host's dimension numbers are the plain ones: rows times columns, contracted over the shared axis. -/
theorem plainTile : Plain dot_S2000x64_S64x64_S2000x64_1_0_0_1_n_n := Plain.of_fields _ rfl rfl rfl rfl rfl rfl
theorem plainHost : Plain Cert.ReferenceIdeal.dot_S100000x64_S64x64_S100000x64_1_0_0_1_n_n := Plain.of_fields _ rfl rfl rfl rfl rfl rfl

/-- The index maps over the grid: the left operand's and the result's blocks move down one block of rows per point,
    the right operand's block stays at the origin. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The host's product of the two arrays the region finds. -/
abbrev product (c : Dev nD) : S100000x64.Idx → EReal :=
  Host.dotGeneral (F := Ideal) (φ₁ := .f32) (φ₂ := .f32) Cert.ReferenceIdeal.dot_S100000x64_S64x64_S100000x64_1_0_0_1_n_n none (V c main_v45) (V c main_arg5)

/-- The left operand's block at point t is the block of rows of the left array that starts at row 2000·t. -/
theorem left_block (c : Dev nD) (t : Fin cfg1.N) : RowBlk (M := 100000) (2000 * t.val) (iblk1 V c 0 t) (V c main_v45) := by
  intro r hr k
  obtain ⟨e0, e1, -, -, -, -⟩ := block_indices t
  show V c main_v45 (((cfg1.win 0).blk t).view.emb (ix2 r k)) = V c main_v45 (ix2 ⟨2000 * t.val + r.val, hr⟩ k)
  refine congrArg (V c main_v45) (funext fun a => Fin.ext ?_)
  match a with
  | ⟨0, _⟩ => show win1_0.index t (0 : Fin 2) * 2000 + 1 * r.val = 2000 * t.val + r.val; omega
  | ⟨1, _⟩ => show win1_0.index t (1 : Fin 2) * 64 + 1 * k.val = k.val; omega

/-- The right operand's block at every point is the whole right array. -/
theorem right_block (c : Dev nD) (t : Fin cfg1.N) (y : S64x64.Idx) : iblk1 V c 1 t y = V c main_arg5 y := by
  obtain ⟨-, -, e2, e3, -, -⟩ := block_indices t
  show V c main_arg5 (((cfg1.win 1).blk t).view.emb y) = V c main_arg5 y
  refine congrArg (V c main_arg5) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- What point t writes back is block t of the product. -/
theorem written_back (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S2000x64) origin, View.ld_unit_zero (S := S64x64) origin]
  obtain ⟨-, -, -, -, e4, e5⟩ := block_indices t
  funext j
  show k1_pay1 (iblk1 V c 0 t) (iblk1 V c 1 t) j = product V c (((cfg1.win 2).blk t).view.emb j)
  unfold k1_pay1
  refine tile_entry plainTile plainHost _ (V c main_v45) _ (V c main_arg5) ((left_block V c t).castSelf _) (right_block V c t) _ _ j _ ?_ ?_
  · show win1_2.index t (0 : Fin 2) * 2000 + 1 * (j 0).val = 2000 * t.val + (j 0).val; omega
  · show win1_2.index t (1 : Fin 2) * 64 + 1 * (j 1).val = (j 1).val; omega

/-- An index of the result array is in point t's block iff each coordinate is in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v46).slice (win1_2.rect t)).set ↔ _
  rw [View.set_slice_whole, Rect.mem_set_unit]
  exact Iff.rfl

/-- Row i of the result lies in the block of point i / 2000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, e4, e5⟩ := block_indices t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- THE REGION'S RESULT: the array it leaves is the host's product of the two arrays it found. -/
theorem result (c : Dev nD) : (dat1 V c).arrAt 2 cfg1.N = product V c :=
  (dat1 V c).arrAt_eq_of_cover 2 (product V c) (fun t _ => written_back V c t) covered

end Cert.KernelIdeal.Dense1

end
-- ==== Proof.Region2.lean ====
/-
  Region 2 of the kernel's program: a dense product computed tile by tile.

  The region's grid has 50 points. At point t the body loads rows 2000·t … 2000·t + 1999 of the left matrix (all
  64 columns) and the whole 64×64 right matrix, narrows both to bf16 (the identity at the extended reals),
  multiplies them into a zero accumulator and stores the 2000×64 tile, which is written back as rows
  2000·t … 2000·t + 1999 of the result. Every entry of a tile is therefore the entry of the whole product
  X · W at the same place, the fifty tiles cover all 100000 rows, and the array the region leaves is the
  host's dot_general of the two arrays the region found — for whatever contents V the region is entered with.
-/
import proofs.«126373_j50139448213625_1_alg».proof.Proof.Gen.KernelIdeal.Frame
import proofs.«126373_j50139448213625_1_alg».proof.Proof.Gen.ReferenceIdeal
import proofs.«126373_j50139448213625_1_alg».proof.Proof.LibTileEntry

set_option maxRecDepth 16384

noncomputable section

namespace Cert.KernelIdeal.Dense2

open Idealize.ShloMosaic Idealize.ShloMosaic.TcCoe Idealize.SL.Sem Idealize.ShloMosaic.ValueIdx
open Cert.KernelIdeal Cert.KernelIdeal.Gen Cert.Lib.DenseLayer Cert.Lib.TileEntry
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's and the host's dimension numbers are the plain ones: rows times columns, contracted over the shared axis. -/
theorem plainTile : Plain dot_S2000x64_S64x64_S2000x64_1_0_0_1_n_n := Plain.of_fields _ rfl rfl rfl rfl rfl rfl
theorem plainHost : Plain Cert.ReferenceIdeal.dot_S100000x64_S64x64_S100000x64_1_0_0_1_n_n := Plain.of_fields _ rfl rfl rfl rfl rfl rfl

/-- The index maps over the grid: the left operand's and the result's blocks move down one block of rows per point,
    the right operand's block stays at the origin. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The host's product of the two arrays the region finds. -/
abbrev product (c : Dev nD) : S100000x64.Idx → EReal :=
  Host.dotGeneral (F := Ideal) (φ₁ := .f32) (φ₂ := .f32) Cert.ReferenceIdeal.dot_S100000x64_S64x64_S100000x64_1_0_0_1_n_n none (V c main_v62) (V c main_arg7)

/-- The left operand's block at point t is the block of rows of the left array that starts at row 2000·t. -/
theorem left_block (c : Dev nD) (t : Fin cfg2.N) : RowBlk (M := 100000) (2000 * t.val) (iblk2 V c 0 t) (V c main_v62) := by
  intro r hr k
  obtain ⟨e0, e1, -, -, -, -⟩ := block_indices t
  show V c main_v62 (((cfg2.win 0).blk t).view.emb (ix2 r k)) = V c main_v62 (ix2 ⟨2000 * t.val + r.val, hr⟩ k)
  refine congrArg (V c main_v62) (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * k.val = k.val; omega

/-- The right operand's block at every point is the whole right array. -/
theorem right_block (c : Dev nD) (t : Fin cfg2.N) (y : S64x64.Idx) : iblk2 V c 1 t y = V c main_arg7 y := by
  obtain ⟨-, -, e2, e3, -, -⟩ := block_indices t
  show V c main_arg7 (((cfg2.win 1).blk t).view.emb y) = V c main_arg7 y
  refine congrArg (V c main_arg7) (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point t writes back is block t of the product. -/
theorem written_back (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero origin]
  simp only [View.ld_unit_zero (S := S2000x64) origin, View.ld_unit_zero (S := S64x64) origin]
  obtain ⟨-, -, -, -, e4, e5⟩ := block_indices t
  funext j
  show k2_pay1 (iblk2 V c 0 t) (iblk2 V c 1 t) j = product V c (((cfg2.win 2).blk t).view.emb j)
  unfold k2_pay1
  refine tile_entry plainTile plainHost _ (V c main_v62) _ (V c main_arg7) ((left_block V c t).castSelf _) (right_block V c t) _ _ j _ ?_ ?_
  · show win2_2.index t (0 : Fin 2) * 2000 + 1 * (j 0).val = 2000 * t.val + (j 0).val; omega
  · show win2_2.index t (1 : Fin 2) * 64 + 1 * (j 1).val = (j 1).val; omega

/-- An index of the result array is in point t's block iff each coordinate is in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v63).slice (win2_2.rect t)).set ↔ _
  rw [View.set_slice_whole, Rect.mem_set_unit]
  exact Iff.rfl

/-- Row i of the result lies in the block of point i / 2000. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, e4, e5⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE REGION'S RESULT: the array it leaves is the host's product of the two arrays it found. -/
theorem result (c : Dev nD) : (dat2 V c).arrAt 2 cfg2.N = product V c :=
  (dat2 V c).arrAt_eq_of_cover 2 (product V c) (fun t _ => written_back V c t) covered

end Cert.KernelIdeal.Dense2

end
-- ==== Proof.Region3.lean ====
/-
  Region 3 of the kernel's program: a dense product computed tile by tile.

  The region's grid has 50 points. At point t the body loads rows 2000·t … 2000·t + 1999 of the left matrix (all
  64 columns) and the whole 64×64 right matrix, narrows both to bf16 (the identity at the extended reals),
  multiplies them into a zero accumulator and stores the 2000×64 tile, which is written back as rows
  2000·t … 2000·t + 1999 of the result. Every entry of a tile is therefore the entry of the whole product
  X · W at the same place, the fifty tiles cover all 100000 rows, and the array the region leaves is the
  host's dot_general of the two arrays the region found — for whatever contents V the region is entered with.
-/
import proofs.«126373_j50139448213625_1_alg».proof.Proof.Gen.KernelIdeal.Frame
import proofs.«126373_j50139448213625_1_alg».proof.Proof.Gen.ReferenceIdeal
import proofs.«126373_j50139448213625_1_alg».proof.Proof.LibTileEntry

set_option maxRecDepth 16384

noncomputable section

namespace Cert.KernelIdeal.Dense3

open Idealize.ShloMosaic Idealize.ShloMosaic.TcCoe Idealize.SL.Sem Idealize.ShloMosaic.ValueIdx
open Cert.KernelIdeal Cert.KernelIdeal.Gen Cert.Lib.DenseLayer Cert.Lib.TileEntry
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's and the host's dimension numbers are the plain ones: rows times columns, contracted over the shared axis. -/
theorem plainTile : Plain dot_S2000x64_S64x64_S2000x64_1_0_0_1_n_n := Plain.of_fields _ rfl rfl rfl rfl rfl rfl
theorem plainHost : Plain Cert.ReferenceIdeal.dot_S100000x64_S64x64_S100000x64_1_0_0_1_n_n := Plain.of_fields _ rfl rfl rfl rfl rfl rfl

/-- The index maps over the grid: the left operand's and the result's blocks move down one block of rows per point,
    the right operand's block stays at the origin. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The host's product of the two arrays the region finds. -/
abbrev product (c : Dev nD) : S100000x64.Idx → EReal :=
  Host.dotGeneral (F := Ideal) (φ₁ := .f32) (φ₂ := .f32) Cert.ReferenceIdeal.dot_S100000x64_S64x64_S100000x64_1_0_0_1_n_n none (V c main_v79) (V c main_arg9)

/-- The left operand's block at point t is the block of rows of the left array that starts at row 2000·t. -/
theorem left_block (c : Dev nD) (t : Fin cfg3.N) : RowBlk (M := 100000) (2000 * t.val) (iblk3 V c 0 t) (V c main_v79) := by
  intro r hr k
  obtain ⟨e0, e1, -, -, -, -⟩ := block_indices t
  show V c main_v79 (((cfg3.win 0).blk t).view.emb (ix2 r k)) = V c main_v79 (ix2 ⟨2000 * t.val + r.val, hr⟩ k)
  refine congrArg (V c main_v79) (funext fun a => Fin.ext ?_)
  match a with
  | ⟨0, _⟩ => show win3_0.index t (0 : Fin 2) * 2000 + 1 * r.val = 2000 * t.val + r.val; omega
  | ⟨1, _⟩ => show win3_0.index t (1 : Fin 2) * 64 + 1 * k.val = k.val; omega

/-- The right operand's block at every point is the whole right array. -/
theorem right_block (c : Dev nD) (t : Fin cfg3.N) (y : S64x64.Idx) : iblk3 V c 1 t y = V c main_arg9 y := by
  obtain ⟨-, -, e2, e3, -, -⟩ := block_indices t
  show V c main_arg9 (((cfg3.win 1).blk t).view.emb y) = V c main_arg9 y
  refine congrArg (V c main_arg9) (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- What point t writes back is block t of the product. -/
theorem written_back (c : Dev nD) (t : Fin cfg3.N) :
    (dat3 V c).flushed 2 t = ((cfg3.win 2).blk t).view.read (Elt Ideal) (product V c) := by
  show (cfg3.win 2).cut (grid3.coords t) ((dat3 V c).after 2 t) = _
  rw [after3_2]
  unfold out3_2
  rw [View.canon_unit_zero origin]
  simp only [View.ld_unit_zero (S := S2000x64) origin, View.ld_unit_zero (S := S64x64) origin]
  obtain ⟨-, -, -, -, e4, e5⟩ := block_indices t
  funext j
  show k3_pay1 (iblk3 V c 0 t) (iblk3 V c 1 t) j = product V c (((cfg3.win 2).blk t).view.emb j)
  unfold k3_pay1
  refine tile_entry plainTile plainHost _ (V c main_v79) _ (V c main_arg9) ((left_block V c t).castSelf _) (right_block V c t) _ _ j _ ?_ ?_
  · show win3_2.index t (0 : Fin 2) * 2000 + 1 * (j 0).val = 2000 * t.val + (j 0).val; omega
  · show win3_2.index t (1 : Fin 2) * 64 + 1 * (j 1).val = (j 1).val; omega

/-- An index of the result array is in point t's block iff each coordinate is in the block's range on its axis. -/
theorem mem_block (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v80).slice (win3_2.rect t)).set ↔ _
  rw [View.set_slice_whole, Rect.mem_set_unit]
  exact Iff.rfl

/-- Row i of the result lies in the block of point i / 2000. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨-, -, -, -, e4, e5⟩ := block_indices t
  have ht : t.val = (i 0).val / 2000 := rfl
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- THE REGION'S RESULT: the array it leaves is the host's product of the two arrays it found. -/
theorem result (c : Dev nD) : (dat3 V c).arrAt 2 cfg3.N = product V c :=
  (dat3 V c).arrAt_eq_of_cover 2 (product V c) (fun t _ => written_back V c t) covered

end Cert.KernelIdeal.Dense3

end
-- ==== Proof.Region4.lean ====
/-
  Region 4 of the kernel's program: the linear head, one block.

  The grid has one point. The body loads the whole 128×64 pooled matrix, the whole 64×1 weight column and the 1×1
  bias, narrows the two factors to bf16 (the identity at the extended reals), multiplies them into a zero
  accumulator, adds the bias broadcast down the 128 rows and stores the 128×1 result, which is written back whole.
  So the array the region leaves holds, at row i, the host's product's entry at row i plus the one bias number —
  for whatever contents V the region is entered with.
-/
import proofs.«126373_j50139448213625_1_alg».proof.Proof.Gen.KernelIdeal.Frame
import proofs.«126373_j50139448213625_1_alg».proof.Proof.Gen.ReferenceIdeal
import proofs.«126373_j50139448213625_1_alg».proof.Proof.LibTileEntry

set_option maxRecDepth 16384

noncomputable section

namespace Cert.KernelIdeal.Dense4

open Idealize.ShloMosaic Idealize.ShloMosaic.TcCoe Idealize.SL.Sem Idealize.ShloMosaic.ValueIdx
open Cert.KernelIdeal Cert.KernelIdeal.Gen Cert.Lib.DenseLayer Cert.Lib.TileEntry
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

theorem plainTile : Plain dot_S128x64_S64x1_S128x1_1_0_0_1_n_n := Plain.of_fields _ rfl rfl rfl rfl rfl rfl
theorem plainHost : Plain Cert.ReferenceIdeal.dot_S128x64_S64x1_S128x1_1_0_0_1_n_n := Plain.of_fields _ rfl rfl rfl rfl rfl rfl

/-- Every window's block sits at the origin of its array, at the one grid point. -/
theorem block_indices : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Row i of the head: the product's entry plus the bias. -/
abbrev head (c : Dev nD) : S128x1.Idx → EReal := fun i =>
  Host.dotGeneral (F := Ideal) (φ₁ := .f32) (φ₂ := .f32) Cert.ReferenceIdeal.dot_S128x64_S64x1_S128x1_1_0_0_1_n_n none (V c main_v106) (V c main_arg11) i
    + V c main_v107 (ix2 0 0)

theorem left_block (c : Dev nD) (t : Fin cfg4.N) : RowBlk (M := 128) 0 (iblk4 V c 0 t) (V c main_v106) := by
  intro r hr k
  obtain ⟨e0, e1, -, -, -, -, -, -⟩ := block_indices t
  show V c main_v106 (((cfg4.win 0).blk t).view.emb (ix2 r k)) = V c main_v106 (ix2 ⟨0 + r.val, hr⟩ k)
  refine congrArg (V c main_v106) (funext fun a => Fin.ext ?_)
  match a with
  | ⟨0, _⟩ => show win4_0.index t (0 : Fin 2) * 128 + 1 * r.val = 0 + r.val; omega
  | ⟨1, _⟩ => show win4_0.index t (1 : Fin 2) * 64 + 1 * k.val = k.val; omega

theorem right_block (c : Dev nD) (t : Fin cfg4.N) (y : S64x1.Idx) : iblk4 V c 1 t y = V c main_arg11 y := by
  obtain ⟨-, -, e2, e3, -, -, -, -⟩ := block_indices t
  show V c main_arg11 (((cfg4.win 1).blk t).view.emb y) = V c main_arg11 y
  refine congrArg (V c main_arg11) (funext fun a => Fin.ext ?_)
  match a with
  | ⟨0, _⟩ => show win4_1.index t (0 : Fin 2) * 64 + 1 * (y 0).val = (y 0).val; omega
  | ⟨1, _⟩ => show win4_1.index t (1 : Fin 2) * 1 + 1 * (y 1).val = (y 1).val; omega

theorem bias_block (c : Dev nD) (t : Fin cfg4.N) : iblk4 V c 2 t (ix2 0 0) = V c main_v107 (ix2 0 0) := by
  obtain ⟨-, -, -, -, e4, e5, -, -⟩ := block_indices t
  show V c main_v107 (((cfg4.win 2).blk t).view.emb (ix2 0 0)) = V c main_v107 (ix2 0 0)
  refine congrArg (V c main_v107) (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

/-- The body's value at one row: the tile's product entry plus the bias number. -/
theorem payload_entry (x0 : Vec Ideal S128x64 .f32) (x1 : Vec Ideal S64x1 .f32) (x2 : Vec Ideal S1x1 .f32) (j : S128x1.Idx) :
    k4_pay1 x0 x1 x2 j
      = Idealize.ShloMosaic.matmul dot_S128x64_S64x1_S128x1_1_0_0_1_n_n none
          (truncf .bf16 (shapeCast S128x64 x0 shapeCasts_S128x64_S128x64) bitsLt_bf16_f32) (truncf .bf16 x1 bitsLt_bf16_f32)
          (constant S128x1 .f32 0x00000000#32) j + x2 (ix2 0 0) := by
  unfold k4_pay1
  refine (addf_apply _ _ j).trans (congrArg (_ + ·) ?_)
  rw [shapeCast_self]
  exact broadcastTo_apply x2 broadcasts_S1x1_S128x1 j (ix2 0 0) (fun a => by
    match a with
    | ⟨0, _⟩ => exact (if_pos rfl).symm
    | ⟨1, _⟩ => exact (if_pos rfl).symm)

theorem written_back (c : Dev nD) (t : Fin cfg4.N) :
    (dat4 V c).flushed 3 t = ((cfg4.win 3).blk t).view.read (Elt Ideal) (head V c) := by
  show (cfg4.win 3).cut (grid4.coords t) ((dat4 V c).after 3 t) = _
  rw [after4_3]
  unfold out4_3
  rw [View.canon_unit_zero origin]
  simp only [View.ld_unit_zero (S := S128x64) origin, View.ld_unit_zero (S := S64x1) origin, View.ld_unit_zero (S := S1x1) origin]
  obtain ⟨-, -, -, -, -, -, e6, e7⟩ := block_indices t
  funext j
  show k4_pay1 (iblk4 V c 0 t) (iblk4 V c 1 t) (iblk4 V c 2 t) j = head V c (((cfg4.win 3).blk t).view.emb j)
  rw [payload_entry, bias_block]
  refine congrArg (· + V c main_v107 (ix2 0 0)) ?_
  refine tile_entry plainTile plainHost _ (V c main_v106) _ (V c main_arg11) ((left_block V c t).castSelf _) (right_block V c t) _ _ j _ ?_ ?_
  · show win4_3.index t (0 : Fin 2) * 128 + 1 * (j 0).val = 0 + (j 0).val; omega
  · show win4_3.index t (1 : Fin 2) * 1 + 1 * (j 1).val = (j 1).val; omega

theorem mem_block (t : Fin cfg4.N) (i : S128x1.Idx) :
    i ∈ ((cfg4.win 3).blk t).view.set ↔ ∀ a : Fin 2, win4_3.index t a * S128x1.size a ≤ (i a).val ∧ (i a).val < win4_3.index t a * S128x1.size a + S128x1.size a := by
  show i ∈ ((View.whole main_v108).slice (win4_3.rect t)).set ↔ _
  rw [View.set_slice_whole, Rect.mem_set_unit]
  exact Iff.rfl

theorem covered (i : S128x1.Idx) : ∃ t : Fin cfg4.N, (cfg4.win 3).flush t = true ∧ i ∈ ((cfg4.win 3).blk t).view.set := by
  have hi0 : (i 0).val < 128 := (i 0).isLt
  have hi1 : (i 1).val < 1 := (i 1).isLt
  obtain ⟨-, -, -, -, -, -, e6, e7⟩ := block_indices t4_0
  refine ⟨t4_0, flush4_3 t4_0, ?_⟩
  rw [mem_block]
  intro a
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 1 ≤ (i 1).val ∧ (i 1).val < win4_3.index t4_0 (1 : Fin 2) * 1 + 1; omega

/-- THE REGION'S RESULT: the product's column plus the bias number on every row. -/
theorem result (c : Dev nD) : (dat4 V c).arrAt 3 cfg4.N = head V c :=
  (dat4 V c).arrAt_eq_of_cover 3 (head V c) (fun t _ => written_back V c t) covered

end Cert.KernelIdeal.Dense4

end
-- ==== Proof.Stages.lean ====
/-
  The kernel's program, boundary by boundary, in the reference's own stages.

  The reference computes its result in stages: the edge tables (sources %1, targets %3, the symmetric degree weights
  %28), then four graph-convolution layers — a dense product, a gather of its rows along the edges scaled by the edge
  weights, a scatter-add back onto the nodes, a bias — then the pooling over graphs and the linear head. The kernel's
  program runs the very same host operations between its regions, and each region leaves the dense product of the
  two arrays it finds (Region0 … Region4). So at every boundary the kernel's buffers hold the reference's stages of
  the launch arrays: the edge tables when region 0 is entered, each layer's product after its region, each layer's
  output after the stretch that follows, the pooled matrix before the last region, and the result after it.
-/
import proofs.«126373_j50139448213625_1_alg».proof.Proof.Kept
import proofs.«126373_j50139448213625_1_alg».proof.Proof.RefRead
import proofs.«126373_j50139448213625_1_alg».proof.Proof.Region0
import proofs.«126373_j50139448213625_1_alg».proof.Proof.Region1
import proofs.«126373_j50139448213625_1_alg».proof.Proof.Region2
import proofs.«126373_j50139448213625_1_alg».proof.Proof.Region3
import proofs.«126373_j50139448213625_1_alg».proof.Proof.Region4

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.KernelIdeal.Kept Cert.ReferenceIdeal.Read

variable (m : (ℓ : Loc nD τ sig) → Buf (Elt Ideal) ℓ) (ρ : Dev nD → PrngReg) (c : Dev nD)

/-- The launch contents of a buffer. -/
abbrev inp (b : Ref sig .tc) : Buf (Elt Ideal) ((c : Thread nD τ).loc b) := m ((c : Thread nD τ).loc b)

/-! ## The edge tables, when region 0 is entered -/

set_option maxHeartbeats 2000000 in
theorem sources : W3 m ρ c (Proc.devRef .tc main_v1) = val_main_v1 (F := Ideal) (inp m c main_arg1) := by
  show StableHlo.after hostOps0_2 (StableHlo.after hostOps0_1 (StableHlo.after hostOps0 (W0 m ρ c))) (Proc.devRef .tc main_v1) = _
  after_results
  rfl

set_option maxHeartbeats 2000000 in
theorem targets : W3 m ρ c (Proc.devRef .tc main_v3) = val_main_v3 (F := Ideal) (inp m c main_arg1) := by
  show StableHlo.after hostOps0_2 (StableHlo.after hostOps0_1 (StableHlo.after hostOps0 (W0 m ρ c))) (Proc.devRef .tc main_v3) = _
  after_results
  rfl

/-! ## The degree weights: the three stretches before region 0 -/

set_option maxHeartbeats 2000000 in
/-- Which nodes have an incoming edge. -/
theorem deg_pos : W1 m ρ c (Proc.devRef .tc main_v9) = val_main_v9 (F := Ideal) (inp m c main_arg1) := by
  show StableHlo.after hostOps0 (W0 m ρ c) (Proc.devRef .tc main_v9) = _
  after_results
  rfl

set_option maxHeartbeats 2000000 in
/-- The in-degrees raised to the power −1/2. -/
theorem deg_pow : W1 m ρ c (Proc.devRef .tc main_v11) = val_main_v11 (F := Ideal) (inp m c main_arg1) := by
  show StableHlo.after hostOps0 (W0 m ρ c) (Proc.devRef .tc main_v11) = _
  after_results
  rfl

set_option maxHeartbeats 2000000 in
theorem zeros : W1 m ρ c (Proc.devRef .tc main_v12) = val_main_v12 (F := Ideal) := by
  show StableHlo.after hostOps0 (W0 m ρ c) (Proc.devRef .tc main_v12) = _
  after_results
  rfl

set_option maxHeartbeats 2000000 in
/-- The inverse square roots of the in-degrees, with zero put where a node has no incoming edge (a selection, entry by
    entry, between the power and zero). -/
theorem invsqrt_deg : W2 m ρ c (Proc.devRef .tc main_v13) = val_main_v13 (F := Ideal) (inp m c main_arg1) := by
  have h9 := deg_pos m ρ c
  have h11 := deg_pow m ρ c
  have h12 := zeros m ρ c
  show StableHlo.after hostOps0_1 (W1 m ρ c) (Proc.devRef .tc main_v13) = _
  generalize W1 m ρ c = U at h9 h11 h12 ⊢
  after_results
  rw [h9, h11, h12]
  refine (cast_eq _ _).trans ?_
  unfold val_main_v13
  exact congr (congr (congrArg select (cast_eq _ _)) (cast_eq _ _)) (cast_eq _ _)

set_option maxHeartbeats 2000000 in
/-- The edge weights: the product of the two endpoints' inverse square-root degrees. -/
theorem weights : W3 m ρ c (Proc.devRef .tc main_v28) = val_main_v28 (F := Ideal) (inp m c main_arg1) := by
  have h13 := invsqrt_deg m ρ c
  have h1 : W2 m ρ c (Proc.devRef .tc main_v1) = val_main_v1 (F := Ideal) (inp m c main_arg1) :=
    (across0_2 m ρ c main_v1 (by decide)).symm.trans (sources m ρ c)
  have h3 : W2 m ρ c (Proc.devRef .tc main_v3) = val_main_v3 (F := Ideal) (inp m c main_arg1) :=
    (across0_2 m ρ c main_v3 (by decide)).symm.trans (targets m ρ c)
  show StableHlo.after hostOps0_2 (W2 m ρ c) (Proc.devRef .tc main_v28) = _
  generalize W2 m ρ c = U at h13 h1 h3 ⊢
  after_results
  rw [h13, h1, h3]
  rfl

/-! ## The four layers: a region's product, then the stretch that gathers, scales, scatters and adds the bias -/

/-- Region 0 leaves the first layer's dense product. -/
theorem product1 : W4 m ρ c (Proc.devRef .tc main_v29) = val_main_v29 (F := Ideal) (inp m c main_arg0) (inp m c main_arg3) := by
  refine (W4_arr m ρ c 2).trans ((Dense0.result (V3 m ρ) c).trans ?_)
  show Host.dotGeneral (F := Ideal) (φ₁ := .f32) (φ₂ := .f32) _ none (W3 m ρ c (Proc.devRef .tc main_arg0)) (W3 m ρ c (Proc.devRef .tc main_arg3)) = _
  rw [entry0 m ρ c main_arg0 (by decide) (by decide) (by decide), entry0 m ρ c main_arg3 (by decide) (by decide) (by decide)]
  rfl

set_option maxHeartbeats 2000000 in
/-- The first layer's output. -/
theorem layer1 : W5 m ρ c (Proc.devRef .tc main_v45) = val_main_v45 (F := Ideal) (inp m c main_arg0) (inp m c main_arg1) (inp m c main_arg3) (inp m c main_arg4) := by
  have hp := product1 m ρ c
  have hw : W4 m ρ c (Proc.devRef .tc main_v28) = _ := (to4 m ρ c main_v28 (by decide)).trans (weights m ρ c)
  have hs : W4 m ρ c (Proc.devRef .tc main_v1) = _ := (to4 m ρ c main_v1 (by decide)).trans (sources m ρ c)
  have ht : W4 m ρ c (Proc.devRef .tc main_v3) = _ := (to4 m ρ c main_v3 (by decide)).trans (targets m ρ c)
  have hb : W4 m ρ c (Proc.devRef .tc main_arg4) = inp m c main_arg4 := (to4 m ρ c main_arg4 (by decide)).trans (entry0 m ρ c main_arg4 (by decide) (by decide) (by decide))
  show StableHlo.after hostOps1 (W4 m ρ c) (Proc.devRef .tc main_v45) = _
  generalize W4 m ρ c = U at hp hw hs ht hb ⊢
  after_results
  rw [hp, hw, hs, ht, hb]
  rfl

/-- Region 1 leaves the second layer's dense product. -/
theorem product2 : W6 m ρ c (Proc.devRef .tc main_v46) = val_main_v46 (F := Ideal) (inp m c main_arg0) (inp m c main_arg1) (inp m c main_arg3) (inp m c main_arg4) (inp m c main_arg5) := by
  refine (W6_arr m ρ c 2).trans ((Dense1.result (V5 m ρ) c).trans ?_)
  show Host.dotGeneral (F := Ideal) (φ₁ := .f32) (φ₂ := .f32) _ none (W5 m ρ c (Proc.devRef .tc main_v45)) (W5 m ρ c (Proc.devRef .tc main_arg5)) = _
  rw [layer1 m ρ c, (to5 m ρ c main_arg5 (by decide) (by decide)).trans (entry0 m ρ c main_arg5 (by decide) (by decide) (by decide))]
  rfl

set_option maxHeartbeats 2000000 in
/-- The second layer's output. -/
theorem layer2 : W7 m ρ c (Proc.devRef .tc main_v62) = val_main_v62 (F := Ideal) (inp m c main_arg0) (inp m c main_arg1) (inp m c main_arg3) (inp m c main_arg4) (inp m c main_arg5) (inp m c main_arg6) := by
  have hp := product2 m ρ c
  have hw : W6 m ρ c (Proc.devRef .tc main_v28) = _ := (to6 m ρ c main_v28 (by decide) (by decide) (by decide)).trans (weights m ρ c)
  have hs : W6 m ρ c (Proc.devRef .tc main_v1) = _ := (to6 m ρ c main_v1 (by decide) (by decide) (by decide)).trans (sources m ρ c)
  have ht : W6 m ρ c (Proc.devRef .tc main_v3) = _ := (to6 m ρ c main_v3 (by decide) (by decide) (by decide)).trans (targets m ρ c)
  have hb : W6 m ρ c (Proc.devRef .tc main_arg6) = inp m c main_arg6 := (to6 m ρ c main_arg6 (by decide) (by decide) (by decide)).trans (entry0 m ρ c main_arg6 (by decide) (by decide) (by decide))
  show StableHlo.after hostOps2 (W6 m ρ c) (Proc.devRef .tc main_v62) = _
  generalize W6 m ρ c = U at hp hw hs ht hb ⊢
  after_results
  rw [hp, hw, hs, ht, hb]
  rfl

/-- Region 2 leaves the third layer's dense product. -/
theorem product3 : W8 m ρ c (Proc.devRef .tc main_v63) = val_main_v63 (F := Ideal) (inp m c main_arg0) (inp m c main_arg1) (inp m c main_arg3) (inp m c main_arg4) (inp m c main_arg5) (inp m c main_arg6) (inp m c main_arg7) := by
  refine (W8_arr m ρ c 2).trans ((Dense2.result (V7 m ρ) c).trans ?_)
  show Host.dotGeneral (F := Ideal) (φ₁ := .f32) (φ₂ := .f32) _ none (W7 m ρ c (Proc.devRef .tc main_v62)) (W7 m ρ c (Proc.devRef .tc main_arg7)) = _
  rw [layer2 m ρ c, (to7 m ρ c main_arg7 (by decide) (by decide) (by decide) (by decide)).trans (entry0 m ρ c main_arg7 (by decide) (by decide) (by decide))]
  rfl

set_option maxHeartbeats 2000000 in
/-- The third layer's output. -/
theorem layer3 : W9 m ρ c (Proc.devRef .tc main_v79) = val_main_v79 (F := Ideal) (inp m c main_arg0) (inp m c main_arg1) (inp m c main_arg3) (inp m c main_arg4) (inp m c main_arg5) (inp m c main_arg6) (inp m c main_arg7) (inp m c main_arg8) := by
  have hp := product3 m ρ c
  have hw : W8 m ρ c (Proc.devRef .tc main_v28) = _ := (to8 m ρ c main_v28 (by decide) (by decide) (by decide) (by decide) (by decide)).trans (weights m ρ c)
  have hs : W8 m ρ c (Proc.devRef .tc main_v1) = _ := (to8 m ρ c main_v1 (by decide) (by decide) (by decide) (by decide) (by decide)).trans (sources m ρ c)
  have ht : W8 m ρ c (Proc.devRef .tc main_v3) = _ := (to8 m ρ c main_v3 (by decide) (by decide) (by decide) (by decide) (by decide)).trans (targets m ρ c)
  have hb : W8 m ρ c (Proc.devRef .tc main_arg8) = inp m c main_arg8 := (to8 m ρ c main_arg8 (by decide) (by decide) (by decide) (by decide) (by decide)).trans (entry0 m ρ c main_arg8 (by decide) (by decide) (by decide))
  show StableHlo.after hostOps3 (W8 m ρ c) (Proc.devRef .tc main_v79) = _
  generalize W8 m ρ c = U at hp hw hs ht hb ⊢
  after_results
  rw [hp, hw, hs, ht, hb]
  rfl

/-- Region 3 leaves the fourth layer's dense product. -/
theorem product4 : W10 m ρ c (Proc.devRef .tc main_v80) = val_main_v80 (F := Ideal) (inp m c main_arg0) (inp m c main_arg1) (inp m c main_arg3) (inp m c main_arg4) (inp m c main_arg5) (inp m c main_arg6) (inp m c main_arg7) (inp m c main_arg8) (inp m c main_arg9) := by
  refine (W10_arr m ρ c 2).trans ((Dense3.result (V9 m ρ) c).trans ?_)
  show Host.dotGeneral (F := Ideal) (φ₁ := .f32) (φ₂ := .f32) _ none (W9 m ρ c (Proc.devRef .tc main_v79)) (W9 m ρ c (Proc.devRef .tc main_arg9)) = _
  rw [layer3 m ρ c, (to9 m ρ c main_arg9 (by decide) (by decide) (by decide) (by decide) (by decide) (by decide)).trans (entry0 m ρ c main_arg9 (by decide) (by decide) (by decide))]
  rfl

/-! ## The pooling, the head, and the result -/

set_option maxHeartbeats 4000000 in
/-- The fourth layer's output summed per graph and divided by the largest graph's node count. -/
theorem pooled : W11 m ρ c (Proc.devRef .tc main_v106) = val_main_v106 (F := Ideal) (inp m c main_arg0) (inp m c main_arg1) (inp m c main_arg2) (inp m c main_arg3) (inp m c main_arg4) (inp m c main_arg5) (inp m c main_arg6) (inp m c main_arg7) (inp m c main_arg8) (inp m c main_arg9) (inp m c main_arg10) := by
  have hp := product4 m ρ c
  have hw : W10 m ρ c (Proc.devRef .tc main_v28) = _ := (to10 m ρ c main_v28 (by decide) (by decide) (by decide) (by decide) (by decide) (by decide) (by decide)).trans (weights m ρ c)
  have hs : W10 m ρ c (Proc.devRef .tc main_v1) = _ := (to10 m ρ c main_v1 (by decide) (by decide) (by decide) (by decide) (by decide) (by decide) (by decide)).trans (sources m ρ c)
  have ht : W10 m ρ c (Proc.devRef .tc main_v3) = _ := (to10 m ρ c main_v3 (by decide) (by decide) (by decide) (by decide) (by decide) (by decide) (by decide)).trans (targets m ρ c)
  have hb : W10 m ρ c (Proc.devRef .tc main_arg10) = inp m c main_arg10 := (to10 m ρ c main_arg10 (by decide) (by decide) (by decide) (by decide) (by decide) (by decide) (by decide)).trans (entry0 m ρ c main_arg10 (by decide) (by decide) (by decide))
  have hg : W10 m ρ c (Proc.devRef .tc main_arg2) = inp m c main_arg2 := (to10 m ρ c main_arg2 (by decide) (by decide) (by decide) (by decide) (by decide) (by decide) (by decide)).trans (entry0 m ρ c main_arg2 (by decide) (by decide) (by decide))
  show StableHlo.after hostOps4 (W10 m ρ c) (Proc.devRef .tc main_v106) = _
  generalize W10 m ρ c = U at hp hw hs ht hb hg ⊢
  after_results
  rw [hp, hw, hs, ht, hb, hg]
  rfl

/-- The bias of the head, made a 1×1 matrix by a reshape, holds the one bias number. -/
theorem head_bias : W11 m ρ c (Proc.devRef .tc main_v107) (ValueIdx.ix2 0 0) = inp m c main_arg12 (ValueIdx.ix1 0) := by
  have hb : W10 m ρ c (Proc.devRef .tc main_arg12) = inp m c main_arg12 := (to10 m ρ c main_arg12 (by decide) (by decide) (by decide) (by decide) (by decide) (by decide) (by decide)).trans (entry0 m ρ c main_arg12 (by decide) (by decide) (by decide))
  show StableHlo.after hostOps4 (W10 m ρ c) (Proc.devRef .tc main_v107) (ValueIdx.ix2 0 0) = _
  generalize W10 m ρ c = U at hb ⊢
  after_results
  rw [hb]
  exact shapeCast_apply (inp m c main_arg12) shapeCasts_S1_S1x1 (ValueIdx.ix2 0 0) (ValueIdx.ix1 0) rfl

/-- The bias vector has one entry: every index of it is the same index. -/
theorem one_index (a b : S1.Idx) : a = b := funext fun d => by
  match d with
  | ⟨0, _⟩ => exact Subsingleton.elim (α := Fin 1) _ _

/-- THE RESULT: region 4 leaves the reference's result of the launch arrays. -/
theorem result : W12 m ρ c (Proc.devRef .tc main_v108) = val_main_v110 (F := Ideal) (inp m c main_arg0) (inp m c main_arg1) (inp m c main_arg2) (inp m c main_arg3) (inp m c main_arg4) (inp m c main_arg5) (inp m c main_arg6) (inp m c main_arg7) (inp m c main_arg8) (inp m c main_arg9) (inp m c main_arg10) (inp m c main_arg11) (inp m c main_arg12) := by
  refine (W12_arr m ρ c 3).trans ((Dense4.result (V11 m ρ) c).trans ?_)
  funext i
  show Host.dotGeneral (F := Ideal) (φ₁ := .f32) (φ₂ := .f32) _ none (W11 m ρ c (Proc.devRef .tc main_v106)) (W11 m ρ c (Proc.devRef .tc main_arg11)) i
      + W11 m ρ c (Proc.devRef .tc main_v107) (ValueIdx.ix2 0 0) = _
  rw [pooled m ρ c, (to11 m ρ c main_arg11 (by decide) (by decide) (by decide) (by decide) (by decide) (by decide) (by decide) (by decide)).trans (entry0 m ρ c main_arg11 (by decide) (by decide) (by decide)), head_bias m ρ c]
  refine (congrArg (_ + ·) ?_).trans (val_main_v110_apply (F := Ideal) (inp m c main_arg0) (inp m c main_arg1) (inp m c main_arg2) (inp m c main_arg3) (inp m c main_arg4) (inp m c main_arg5) (inp m c main_arg6) (inp m c main_arg7) (inp m c main_arg8) (inp m c main_arg9) (inp m c main_arg10) (inp m c main_arg11) (inp m c main_arg12) i).symm
  rw [val_main_v109_apply, val_main_v108_apply]
  exact congrArg (inp m c main_arg12) (one_index _ _)

end Cert.KernelIdeal.Stages

end
-- ==== Proof.lean ====
/-
  The certificate of the four-layer graph convolution: the kernel's program against its jnp reference, at the
  extended reals.

  Both programs compute, from node features x, an edge list and a graph assignment: the symmetric degree weights of
  the edges; four layers h ↦ scatter_add(weight · (h · W)[source]) + b; the per-graph sums of the last layer divided by
  the largest graph's node count; and a linear head pooled · Wl + bl. They apply the very same host operations (the
  gathers, the scatter-adds, the broadcasts and the pooling) and differ only in the five dense products: the reference
  calls dot_general, the kernel's program runs a tiled matrix-unit kernel per product, whose operands are narrowed to
  bf16 first (the identity at the extended reals) and whose tiles are accumulated into zero. A tile's entries are the
  product's entries (Region0 … Region4), so every region leaves the host's product of the arrays it finds; the
  buffers in between are carried unchanged (Kept); and boundary by boundary the kernel's buffers hold the reference's
  own stages of the launch arrays (Stages). No law of arithmetic that could fail at an infinity is used: the two
  sides are the same sums of the same products, so the precondition is never opened.

  The three frames are the generated ones (the reference's is its run with the result dropped); the idealization
  rewrote nothing, so there is nothing to preserve.
-/
import proofs.«126373_j50139448213625_1_alg».proof.Defs
import proofs.«126373_j50139448213625_1_alg».proof.Proof.Gen.Kernel
import proofs.«126373_j50139448213625_1_alg».proof.Proof.Gen.Kernel.Skeleton
import proofs.«126373_j50139448213625_1_alg».proof.Proof.Gen.Kernel.Launch
import proofs.«126373_j50139448213625_1_alg».proof.Proof.Gen.Kernel.Points
import proofs.«126373_j50139448213625_1_alg».proof.Proof.Gen.Kernel.Frame
import proofs.«126373_j50139448213625_1_alg».proof.Proof.Gen.KernelIdeal
import proofs.«126373_j50139448213625_1_alg».proof.Proof.Gen.KernelIdeal.Skeleton
import proofs.«126373_j50139448213625_1_alg».proof.Proof.Gen.KernelIdeal.Launch
import proofs.«126373_j50139448213625_1_alg».proof.Proof.Gen.KernelIdeal.Points
import proofs.«126373_j50139448213625_1_alg».proof.Proof.Gen.KernelIdeal.Frame
import proofs.«126373_j50139448213625_1_alg».proof.Proof.Gen.ReferenceIdeal
import proofs.«126373_j50139448213625_1_alg».proof.Proof.Gen.Pre_finite_inputs
import proofs.«126373_j50139448213625_1_alg».proof.Proof.RefRun
import proofs.«126373_j50139448213625_1_alg».proof.Proof.RefRead
import proofs.«126373_j50139448213625_1_alg».proof.Proof.KernelRun
import proofs.«126373_j50139448213625_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the reference's last stage of the kernel's launch arrays: the kernel's program because its
    last boundary holds it (Stages.result), the reference because that stage is its run's term, read at arrays that
    agree with the kernel's. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Stages.result m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v110_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
